-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x64x256 : Shape := ⟨3, ![8, 64, 256]⟩
abbrev S256x384 : Shape := ⟨2, ![256, 384]⟩
abbrev S500x256 : Shape := ⟨2, ![500, 256]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x64x256 : S_.BroadcastsInDim S8x64x256 (![] : Fin 0 → Fin S8x64x256.rank)
  reducesTo_S8x64x256_S_d0_1_2 : S8x64x256.ReducesTo [0, 1, 2] S_
  bcast_S_S256x384 : S_.BroadcastsInDim S256x384 (![] : Fin 0 → Fin S256x384.rank)
  reducesTo_S256x384_S_d0_1 : S256x384.ReducesTo [0, 1] S_
  bcast_S_S500x256 : S_.BroadcastsInDim S500x256 (![] : Fin 0 → Fin S500x256.rank)
  reducesTo_S500x256_S_d0_1 : S500x256.ReducesTo [0, 1] S_

variable [Facts]

def fn_part1 {F : FTy → Type} [FloatOps F] (main_v13 : IVec S_ 1) (main_v16 : IVec S500x256 1) : IVec S_ 1 :=
  let main_c_5 : IVec S_ 1 := constantI S_ 1 1#1
  let main_v17 : IVec S_ 1 := (fun x v => Host.reduce IntOp.andi x v reducesTo_S500x256_S_d0_1 h_S_) main_v16 main_c_5
  let main_v18 : IVec S_ 1 := andi main_v13 main_v17
  main_v18

def fn {F : FTy → Type} [FloatOps F] (main_arg0 : FVec F S8x256x128 .f32) (main_arg1 : FVec F S8x64x256 .f32) (main_arg2 : FVec F S256x384 .f32) (main_arg3 : FVec F S500x256 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x64x256 .f32 := Host.absf main_arg1
  let main_cst_0 : FVec F S_ .f32 := constant S_ .f32 0x7F800000#32
  let main_v5 : FVec F S8x64x256 .f32 := broadcastInDim S8x64x256 ![] bcast_S_S8x64x256 main_cst_0
  let main_v6 : IVec S8x64x256 1 := cmpf .olt main_v4 main_v5
  let main_c_1 : IVec S_ 1 := constantI S_ 1 1#1
  let main_v7 : IVec S_ 1 := (fun x v => Host.reduce IntOp.andi x v reducesTo_S8x64x256_S_d0_1_2 h_S_) main_v6 main_c_1
  let main_v8 : IVec S_ 1 := andi main_v3 main_v7
  let main_v9 : FVec F S256x384 .f32 := Host.absf main_arg2
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S500x256 .f32 := Host.absf main_arg3
  let main_cst_4 : FVec F S_ .f32 := constant S_ .f32 0x7F800000#32
  let main_v15 : FVec F S500x256 .f32 := broadcastInDim S500x256 ![] bcast_S_S500x256 main_cst_4
  let main_v16 : IVec S500x256 1 := cmpf .olt main_v14 main_v15
  fn_part1 (F := F) main_v13 main_v16
-- ==== Kernel.lean ====
abbrev S8x256x128 : Shape := ⟨3, ![8, 256, 128]⟩
abbrev S8x64x256 : Shape := ⟨3, ![8, 64, 256]⟩
abbrev S256x384 : Shape := ⟨2, ![256, 384]⟩
abbrev S500x256 : Shape := ⟨2, ![500, 256]⟩
abbrev S256x128 : Shape := ⟨2, ![256, 128]⟩
abbrev S128x256 : Shape := ⟨2, ![128, 256]⟩
abbrev S256x256 : Shape := ⟨2, ![256, 256]⟩
abbrev S256x500 : Shape := ⟨2, ![256, 500]⟩
abbrev S8x256x64x500 : Shape := ⟨4, ![8, 256, 64, 500]⟩
abbrev S1x64x128 : Shape := ⟨3, ![1, 64, 128]⟩
abbrev S1x64x256 : Shape := ⟨3, ![1, 64, 256]⟩
abbrev S1x64x64x500 : Shape := ⟨4, ![1, 64, 64, 500]⟩
abbrev S64x128 : Shape := ⟨2, ![64, 128]⟩
abbrev S64x256 : Shape := ⟨2, ![64, 256]⟩
abbrev S64x1x256 : Shape := ⟨3, ![64, 1, 256]⟩
abbrev S64x64x256 : Shape := ⟨3, ![64, 64, 256]⟩
abbrev S4096x256 : Shape := ⟨2, ![4096, 256]⟩
abbrev S4096x500 : Shape := ⟨2, ![4096, 500]⟩
abbrev S64x64x500 : Shape := ⟨3, ![64, 64, 500]⟩

abbrev nBuf : Space → Nat
  | .hbm => 11
  | .vmem => 9
  | .smem => 0
  | _ => 0

abbrev bufTy : (tb : Table) → Fin (tcTables nBuf tb) → BufTy
  | .hbm, ⟨0, _⟩ => ⟨S8x256x128, .f32⟩
  | .hbm, ⟨1, _⟩ => ⟨S8x64x256, .f32⟩
  | .hbm, ⟨2, _⟩ => ⟨S256x384, .f32⟩
  | .hbm, ⟨3, _⟩ => ⟨S500x256, .f32⟩
  | .hbm, ⟨4, _⟩ => ⟨S256x128, .f32⟩
  | .hbm, ⟨5, _⟩ => ⟨S128x256, .f32⟩
  | .hbm, ⟨6, _⟩ => ⟨S256x256, .f32⟩
  | .hbm, ⟨7, _⟩ => ⟨S256x256, .f32⟩
  | .hbm, ⟨8, _⟩ => ⟨S256x500, .f32⟩
  | .hbm, ⟨9, _⟩ => ⟨S256x500, .bf16⟩
  | .hbm, ⟨10, _⟩ => ⟨S8x256x64x500, .f32⟩
  | .local _ .vmem, ⟨0, _⟩ => ⟨S1x64x128, .f32⟩
  | .local _ .vmem, ⟨1, _⟩ => ⟨S1x64x128, .f32⟩
  | .local _ .vmem, ⟨2, _⟩ => ⟨S1x64x256, .f32⟩
  | .local _ .vmem, ⟨3, _⟩ => ⟨S1x64x256, .f32⟩
  | .local _ .vmem, ⟨4, _⟩ => ⟨S128x256, .f32⟩
  | .local _ .vmem, ⟨5, _⟩ => ⟨S256x256, .f32⟩
  | .local _ .vmem, ⟨6, _⟩ => ⟨S256x500, .bf16⟩
  | .local _ .vmem, ⟨7, _⟩ => ⟨S1x64x64x500, .f32⟩
  | .local _ .vmem, ⟨8, _⟩ => ⟨S1x64x64x500, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x500 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x64x500 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S256x384_S256x128_0_0 : S256x384.Slices ![0, 0] S256x128
  transposes_S256x128_S128x256_1_0 : S256x128.Transposes [1, 0] S128x256
  slices_S256x384_S256x256_0_128 : S256x384.Slices ![0, 128] S256x256
  transposes_S256x256_S256x256_1_0 : S256x256.Transposes [1, 0] S256x256
  transposes_S500x256_S256x500_1_0 : S500x256.Transposes [1, 0] S256x500
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x500_S256x500_0_0 : ∀ a, (![0, 0] : Fin 2 → Nat) a + S256x500.size a ≤ S256x500.size a
  h_S256x500 : 0 < S256x500.numel
  shapeCasts_S256x500_S256x500 : S256x500.ShapeCasts S256x500
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  shapeCasts_S64x64x256_S4096x256 : S64x64x256.ShapeCasts S4096x256
  shapeCasts_S4096x500_S64x64x500 : S4096x500.ShapeCasts S64x64x500
  inb_S1x64x64x500_S1x64x64x500_0_0_0_0 : ∀ a, (![0, 0, 0, 0] : Fin 4 → Nat) a + S1x64x64x500.size a ≤ S1x64x64x500.size a
  h_S1x64x64x500 : 0 < S1x64x64x500.numel
  shapeCasts_S1x64x64x500_S64x64x500 : S1x64x64x500.ShapeCasts S64x64x500
  shapeCasts_S64x64x500_S1x64x64x500 : S64x64x500.ShapeCasts S1x64x64x500
  dot_S64x128_S128x256_S64x256_1_0_0_1_n_n_wf : DotDims.WF S64x128 S128x256 S64x256 [1] [0] [0] [1] [] []
  dot_S64x256_S256x256_S64x256_1_0_0_1_n_n_wf : DotDims.WF S64x256 S256x256 S64x256 [1] [0] [0] [1] [] []
  dot_S4096x256_S256x500_S4096x500_1_0_0_1_n_n_wf : DotDims.WF S4096x256 S256x500 S4096x500 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x256x128.size a
  hwx0_0 : ∀ i : grid0.Coords, EltTy.bits .f32 = 32 ∨ (Rect.block (s := S8x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S8x64x256.size a
  hwx0_1 : ∀ i : grid0.Coords, EltTy.bits .f32 = 32 ∨ (Rect.block (s := S8x64x256) S1x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x500.size a ≤ S256x500.size a
  hwx0_4 : ∀ i : grid0.Coords, EltTy.bits .bf16 = 32 ∨ (Rect.block (s := S256x500) S256x500.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64x500.size a ≤ S8x256x64x500.size a
  hwx0_5 : ∀ i : grid0.Coords, EltTy.bits .f32 = 32 ∨ (Rect.block (s := S8x256x64x500) S1x64x64x500.size (cc0_transform_5 i) (hinb0_5 i)).WholeWords (EltTy.packing .f32)

variable [Facts₀]

def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S4096x256_S256x500_S4096x500_1_0_0_1_n_n : DotDims S4096x256 S256x500 S4096x500 where
  lhsContracting := [1]
  rhsContracting := [0]
  lhsNonContracting := [0]
  rhsNonContracting := [1]
  lhsBatch := []
  rhsBatch := []
  wf := dot_S4096x256_S256x500_S4096x500_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64x64x500.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x64x256 : Shape := ⟨3, ![8, 64, 256]⟩
abbrev S256x384 : Shape := ⟨2, ![256, 384]⟩
abbrev S500x256 : Shape := ⟨2, ![500, 256]⟩
abbrev S256x128 : Shape := ⟨2, ![256, 128]⟩
abbrev S256x256 : Shape := ⟨2, ![256, 256]⟩
abbrev S8x256x256 : Shape := ⟨3, ![8, 256, 256]⟩
abbrev S8x256x1x256 : Shape := ⟨4, ![8, 256, 1, 256]⟩
abbrev S8x1x64x256 : Shape := ⟨4, ![8, 1, 64, 256]⟩
abbrev S8x256x64x256 : Shape := ⟨4, ![8, 256, 64, 256]⟩
abbrev S8x256x64x500 : Shape := ⟨4, ![8, 256, 64, 500]⟩

abbrev nBuf : Space → Nat
  | .hbm => 15
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x64x256, .f32⟩
  | .hbm, ⟨2, _⟩ => ⟨S256x384, .f32⟩
  | .hbm, ⟨3, _⟩ => ⟨S500x256, .f32⟩
  | .hbm, ⟨4, _⟩ => ⟨S256x128, .f32⟩
  | .hbm, ⟨5, _⟩ => ⟨S256x256, .f32⟩
  | .hbm, ⟨6, _⟩ => ⟨S8x256x256, .f32⟩
  | .hbm, ⟨7, _⟩ => ⟨S8x64x256, .f32⟩
  | .hbm, ⟨8, _⟩ => ⟨S8x256x1x256, .f32⟩
  | .hbm, ⟨9, _⟩ => ⟨S8x1x64x256, .f32⟩
  | .hbm, ⟨10, _⟩ => ⟨S8x256x64x256, .f32⟩
  | .hbm, ⟨11, _⟩ => ⟨S8x256x64x256, .f32⟩
  | .hbm, ⟨12, _⟩ => ⟨S8x256x64x256, .f32⟩
  | .hbm, ⟨13, _⟩ => ⟨S8x256x64x256, .f32⟩
  | .hbm, ⟨14, _⟩ => ⟨S8x256x64x500, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  slices_S256x384_S256x128_0_0 : S256x384.Slices ![0, 0] S256x128
  slices_S256x384_S256x256_0_128 : S256x384.Slices ![0, 128] S256x256
  bcast_S8x256x256_S8x256x1x256_0_1_3 : S8x256x256.BroadcastsInDim S8x256x1x256 (![0, 1, 3] : Fin 3 → Fin S8x256x1x256.rank)
  bcast_S8x64x256_S8x1x64x256_0_2_3 : S8x64x256.BroadcastsInDim S8x1x64x256 (![0, 2, 3] : Fin 3 → Fin S8x1x64x256.rank)
  bcast_S8x256x1x256_S8x256x64x256_0_1_2_3 : S8x256x1x256.BroadcastsInDim S8x256x64x256 (![0, 1, 2, 3] : Fin 4 → Fin S8x256x64x256.rank)
  bcast_S8x1x64x256_S8x256x64x256_0_1_2_3 : S8x1x64x256.BroadcastsInDim S8x256x64x256 (![0, 1, 2, 3] : Fin 4 → Fin S8x256x64x256.rank)
  dot_S8x256x128_S256x128_S8x256x256_2_1_01_0_n_n_wf : DotDims.WF S8x256x128 S256x128 S8x256x256 [2] [1] [0, 1] [0] [] []
  dot_S8x64x256_S256x256_S8x64x256_2_1_01_0_n_n_wf : DotDims.WF S8x64x256 S256x256 S8x64x256 [2] [1] [0, 1] [0] [] []
  dot_S8x256x64x256_S500x256_S8x256x64x500_3_1_012_0_n_n_wf : DotDims.WF S8x256x64x256 S500x256 S8x256x64x500 [3] [1] [0, 1, 2] [0] [] []

variable [Facts₀]

def dot_S8x256x128_S256x128_S8x256x256_2_1_01_0_n_n : DotDims S8x256x128 S256x128 S8x256x256 where
  lhsContracting := [2]
  rhsContracting := [1]
  lhsNonContracting := [0, 1]
  rhsNonContracting := [0]
  lhsBatch := []
  rhsBatch := []
  wf := dot_S8x256x128_S256x128_S8x256x256_2_1_01_0_n_n_wf
def dot_S8x64x256_S256x256_S8x64x256_2_1_01_0_n_n : DotDims S8x64x256 S256x256 S8x64x256 where
  lhsContracting := [2]
  rhsContracting := [1]
  lhsNonContracting := [0, 1]
  rhsNonContracting := [0]
  lhsBatch := []
  rhsBatch := []
  wf := dot_S8x64x256_S256x256_S8x64x256_2_1_01_0_n_n_wf
def dot_S8x256x64x256_S500x256_S8x256x64x500_3_1_012_0_n_n : DotDims S8x256x64x256 S500x256 S8x256x64x500 where
  lhsContracting := [3]
  rhsContracting := [1]
  lhsNonContracting := [0, 1, 2]
  rhsNonContracting := [0]
  lhsBatch := []
  rhsBatch := []
  wf := dot_S8x256x64x256_S500x256_S8x256x64x500_3_1_012_0_n_n_wf

class Facts : Prop extends Facts₀ where

variable [Facts]
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibOuterLayout.lean ====
/-
  The layout operations of an outer sum read at an index given by coordinates: a matrix `[a, b]` given a middle unit
  axis, `[a, 1, b]`, and the three broadcasts to `[a, c, b]` that an outer sum `u[i, :] + v[k, :] + w[:]` is built
  from — of `[a, 1, b]` (constant along the middle axis), of `[1, c, b]` (constant along the leading axis) and of
  `[1, 1, b]` (one row over everything).
-/
import Idealize.ShloMosaic.Lib.ValueLayout

namespace Cert.LibOuterLayout

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, k, j)`, the operand at `(0, k, j)`. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (k : Fin c) (j : Fin b) :
    broadcastTo ⟨3, ![a, c, b]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if c = 1 then 0 else k.val
    split
    · have := k.isLt; omega
    · rfl
  | ⟨2, _⟩ =>
    show j.val = if b = 1 then 0 else j.val
    split
    · have := j.isLt; omega
    · rfl

/-- A `[1, 1, b]` array broadcast to `[a, c, b]` reads, at `(i, k, j)`, the operand at `(0, 0, j)`. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (k : Fin c) (j : Fin b) :
    broadcastTo ⟨3, ![a, c, b]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

end Cert.LibOuterLayout
-- ==== Proof.Joint.lean ====
/-
  The joint network as one function of its four argument arrays, on the extended reals.

  For a batch entry b, an encoder frame t, a predictor step u and a vocabulary entry v,

      logits (b, t, u, v) = Σ_j tanh( Σ_e ft (b, t, e) · w1 (j, e)  +  Σ_p gu (b, u, p) · w1 (j, 128 + p) ) · w2 (v, j)

  with e over the 128 encoder features, p over the 256 predictor features and j over the 256 joint features: the first
  linear layer applied to the concatenation of an encoder frame and a predictor step is the sum of its encoder columns
  applied to the frame and its predictor columns applied to the step; tanh; then the second linear layer.
-/
import Idealize.ShloMosaic.PureOps.Ideal
import Idealize.ShloMosaic.Lib.ValueIdx

noncomputable section

namespace Cert.Joint

open Idealize.ShloMosaic Idealize.ShloMosaic.ValueIdx
open scoped BigOperators

/-- Column e of the first layer's weight rows, for an encoder feature e (the first 128 columns). -/
abbrev encCol (e : Fin 128) : Fin 384 := ⟨e.val, by have := e.isLt; omega⟩
/-- Column 128 + p of the first layer's weight rows, for a predictor feature p (the last 256 columns). -/
abbrev predCol (p : Fin 256) : Fin 384 := ⟨128 + p.val, by have := p.isLt; omega⟩

/-- The encoder half of the first layer: frame (b, t) against the encoder columns of weight row j. -/
def encProj (ft : (⟨3, ![8, 256, 128]⟩ : Shape).Idx → EReal) (w1 : (⟨2, ![256, 384]⟩ : Shape).Idx → EReal)
    (b : Fin 8) (t : Fin 256) (j : Fin 256) : EReal :=
  ∑ e : Fin 128, ft (ix3 b t e) * w1 (ix2 j (encCol e))

/-- The predictor half of the first layer: step (b, u) against the predictor columns of weight row j. -/
def predProj (gu : (⟨3, ![8, 64, 256]⟩ : Shape).Idx → EReal) (w1 : (⟨2, ![256, 384]⟩ : Shape).Idx → EReal)
    (b : Fin 8) (u : Fin 64) (j : Fin 256) : EReal :=
  ∑ p : Fin 256, gu (ix3 b u p) * w1 (ix2 j (predCol p))

/-- The hidden activation of the pair (t, u) in batch entry b, at joint feature j. -/
def hidden (ft : (⟨3, ![8, 256, 128]⟩ : Shape).Idx → EReal) (gu : (⟨3, ![8, 64, 256]⟩ : Shape).Idx → EReal)
    (w1 : (⟨2, ![256, 384]⟩ : Shape).Idx → EReal) (b : Fin 8) (t : Fin 256) (u : Fin 64) (j : Fin 256) : EReal :=
  Ideal.tanh (encProj ft w1 b t j + predProj gu w1 b u j)

/-- The logit of vocabulary entry v for the pair (t, u) in batch entry b. -/
def logitAt (ft : (⟨3, ![8, 256, 128]⟩ : Shape).Idx → EReal) (gu : (⟨3, ![8, 64, 256]⟩ : Shape).Idx → EReal)
    (w1 : (⟨2, ![256, 384]⟩ : Shape).Idx → EReal) (w2 : (⟨2, ![500, 256]⟩ : Shape).Idx → EReal)
    (b : Fin 8) (t : Fin 256) (u : Fin 64) (v : Fin 500) : EReal :=
  ∑ j : Fin 256, hidden ft gu w1 b t u j * w2 (ix2 v j)

/-- The whole result array, index by index. -/
def logits (ft : (⟨3, ![8, 256, 128]⟩ : Shape).Idx → EReal) (gu : (⟨3, ![8, 64, 256]⟩ : Shape).Idx → EReal)
    (w1 : (⟨2, ![256, 384]⟩ : Shape).Idx → EReal) (w2 : (⟨2, ![500, 256]⟩ : Shape).Idx → EReal) :
    (⟨4, ![8, 256, 64, 500]⟩ : Shape).Idx → EReal :=
  fun i => logitAt ft gu w1 w2 (i 0) (i 1) (i 2) (i 3)

/-- At an index given by its coordinates. -/
theorem logits_ix4 (ft : (⟨3, ![8, 256, 128]⟩ : Shape).Idx → EReal) (gu : (⟨3, ![8, 64, 256]⟩ : Shape).Idx → EReal)
    (w1 : (⟨2, ![256, 384]⟩ : Shape).Idx → EReal) (w2 : (⟨2, ![500, 256]⟩ : Shape).Idx → EReal)
    (b : Fin 8) (t : Fin 256) (u : Fin 64) (v : Fin 500) :
    logits ft gu w1 w2 (ix4 b t u v) = logitAt ft gu w1 w2 b t u v := rfl

end Cert.Joint

end
-- ==== Proof.BodyJoint.lean ====
/-
  What one grid point's body stores, read at an index.

  The body holds a block of 64 encoder frames (x0), the batch entry's 64 predictor steps (x1), the two halves of the
  first layer's weights transposed (x2: encoder feature × joint feature, x3: predictor feature × joint feature) and the
  second layer's weights transposed (x4: joint feature × vocabulary).  It multiplies frames by x2 and steps by x3,
  adds every frame's row to every step's row, applies tanh, lays the 64 × 64 pairs out as 4096 rows (pair (t, u) is row
  64·t + u), multiplies by x4 and lays the rows back out as pairs.  So the entry stored at (t, u, v) is

      Σ_j tanh( Σ_e x0 (t, e) · x2 (e, j) + Σ_p x1 (u, p) · x3 (p, j) ) · x4 (j, v).

  The narrowing of the activations before the last product changes no value on the extended reals.
-/
import proofs.«141013_j65859028517441_2_alg».proof.Proof.Gen.KernelIdeal.Skeleton
import proofs.«141013_j65859028517441_2_alg».proof.Proof.LibDot
import proofs.«141013_j65859028517441_2_alg».proof.Proof.LibOuterLayout
import proofs.«141013_j65859028517441_2_alg».proof.Proof.Joint
import Idealize.ShloMosaic.Lib.ValueLayout
import Idealize.ShloMosaic.PureOps.Ideal.Laws

noncomputable section

namespace Cert.BodyJoint

open Cert.KernelIdeal Cert.KernelIdeal.Gen Idealize.ShloMosaic Idealize.ShloMosaic.ValueIdx Cert.Joint
open scoped BigOperators

/-- Row 64·t + u of the 4096 pair rows. -/
abbrev pairRow (t u : Fin 64) : Fin 4096 := ⟨t.val * 64 + u.val, by have := t.isLt; have := u.isLt; omega⟩

/-! ## The three products -/

/-- Frames times the encoder half of the first layer, at (t, j). -/
theorem encStage (x0 : Vec Ideal S1x64x128 .f32) (x2 : Vec Ideal S128x256 .f32) (t : Fin 64) (j : Fin 256) :
    matmul (F := Ideal) (φ₁ := .f32) (φ₂ := .f32) dot_S64x128_S128x256_S64x256_1_0_0_1_n_n none (shapeCast S64x128 x0 shapeCasts_S1x64x128_S64x128)
        (shapeCast S128x256 x2 shapeCasts_S128x256_S128x256) (constant S64x256 .f32 0x00000000#32) (ix2 t j)
      = ∑ e : Fin 128, x0 (ix3 (0 : Fin 1) t e) * x2 (ix2 e j) := by
  refine (Cert.LibDot.matmul_zero_apply dot_S64x128_S128x256_S64x256_1_0_0_1_n_n rfl rfl
    (fun i q => by
      unfold DotDims.lhsIdx
      rw [dif_neg (show ¬(0 : Fin S64x128.rank) ∈ dot_S64x128_S128x256_S64x256_1_0_0_1_n_n.lhsBatch by decide),
        dif_pos (show (0 : Fin S64x128.rank) ∈ dot_S64x128_S128x256_S64x256_1_0_0_1_n_n.lhsNonContracting by decide)]
      rfl)
    (fun i q => dot_S64x128_S128x256_S64x256_1_0_0_1_n_n.lhsIdx_val_of_single rfl i q)
    (fun i q => dot_S64x128_S128x256_S64x256_1_0_0_1_n_n.rhsIdx_val_of_single rfl i q)
    (fun i q => by
      unfold DotDims.rhsIdx
      rw [dif_neg (show ¬(1 : Fin S128x256.rank) ∈ dot_S64x128_S128x256_S64x256_1_0_0_1_n_n.rhsBatch by decide),
        dif_pos (show (1 : Fin S128x256.rank) ∈ dot_S64x128_S128x256_S64x256_1_0_0_1_n_n.rhsNonContracting by decide)]
      rfl)
    none _ _ t j).trans ?_
  refine Finset.sum_congr rfl fun e _ => ?_
  rw [shapeCast_1ab_ab_apply, shapeCast_self]

/-- Steps times the predictor half of the first layer, at (u, j). -/
theorem predStage (x1 : Vec Ideal S1x64x256 .f32) (x3 : Vec Ideal S256x256 .f32) (u : Fin 64) (j : Fin 256) :
    matmul (F := Ideal) (φ₁ := .f32) (φ₂ := .f32) dot_S64x256_S256x256_S64x256_1_0_0_1_n_n none (shapeCast S64x256 x1 shapeCasts_S1x64x256_S64x256)
        (shapeCast S256x256 x3 shapeCasts_S256x256_S256x256) (constant S64x256 .f32 0x00000000#32) (ix2 u j)
      = ∑ p : Fin 256, x1 (ix3 (0 : Fin 1) u p) * x3 (ix2 p j) := by
  refine (Cert.LibDot.matmul_zero_apply dot_S64x256_S256x256_S64x256_1_0_0_1_n_n rfl rfl
    (fun i q => by
      unfold DotDims.lhsIdx
      rw [dif_neg (show ¬(0 : Fin S64x256.rank) ∈ dot_S64x256_S256x256_S64x256_1_0_0_1_n_n.lhsBatch by decide),
        dif_pos (show (0 : Fin S64x256.rank) ∈ dot_S64x256_S256x256_S64x256_1_0_0_1_n_n.lhsNonContracting by decide)]
      rfl)
    (fun i q => dot_S64x256_S256x256_S64x256_1_0_0_1_n_n.lhsIdx_val_of_single rfl i q)
    (fun i q => dot_S64x256_S256x256_S64x256_1_0_0_1_n_n.rhsIdx_val_of_single rfl i q)
    (fun i q => by
      unfold DotDims.rhsIdx
      rw [dif_neg (show ¬(1 : Fin S256x256.rank) ∈ dot_S64x256_S256x256_S64x256_1_0_0_1_n_n.rhsBatch by decide),
        dif_pos (show (1 : Fin S256x256.rank) ∈ dot_S64x256_S256x256_S64x256_1_0_0_1_n_n.rhsNonContracting by decide)]
      rfl)
    none _ _ u j).trans ?_
  refine Finset.sum_congr rfl fun p _ => ?_
  rw [shapeCast_1ab_ab_apply, shapeCast_self]

/-- Pair rows times the second layer, at (r, v). -/
theorem logitStage (H : FVec Ideal S4096x256 .bf16) (x4 : Vec Ideal S256x500 .bf16) (r : Fin 4096) (v : Fin 500) :
    matmul (F := Ideal) (φ₁ := .bf16) (φ₂ := .bf16) dot_S4096x256_S256x500_S4096x500_1_0_0_1_n_n none H
        (shapeCast S256x500 x4 shapeCasts_S256x500_S256x500) (constant S4096x500 .f32 0x00000000#32) (ix2 r v)
      = ∑ j : Fin 256, H (ix2 r j) * x4 (ix2 j v) := by
  refine (Cert.LibDot.matmul_zero_apply dot_S4096x256_S256x500_S4096x500_1_0_0_1_n_n rfl rfl
    (fun i q => by
      unfold DotDims.lhsIdx
      rw [dif_neg (show ¬(0 : Fin S4096x256.rank) ∈ dot_S4096x256_S256x500_S4096x500_1_0_0_1_n_n.lhsBatch by decide),
        dif_pos (show (0 : Fin S4096x256.rank) ∈ dot_S4096x256_S256x500_S4096x500_1_0_0_1_n_n.lhsNonContracting by decide)]
      rfl)
    (fun i q => dot_S4096x256_S256x500_S4096x500_1_0_0_1_n_n.lhsIdx_val_of_single rfl i q)
    (fun i q => dot_S4096x256_S256x500_S4096x500_1_0_0_1_n_n.rhsIdx_val_of_single rfl i q)
    (fun i q => by
      unfold DotDims.rhsIdx
      rw [dif_neg (show ¬(1 : Fin S256x500.rank) ∈ dot_S4096x256_S256x500_S4096x500_1_0_0_1_n_n.rhsBatch by decide),
        dif_pos (show (1 : Fin S256x500.rank) ∈ dot_S4096x256_S256x500_S4096x500_1_0_0_1_n_n.rhsNonContracting by decide)]
      rfl)
    none _ _ r v).trans ?_
  refine Finset.sum_congr rfl fun j _ => ?_
  rw [shapeCast_self]

/-! ## The outer sum, tanh, and the pairs laid out as rows -/

/-- Row 64·t + u of the activations, at joint feature j: tanh of frame t's row plus step u's row. -/
theorem hiddenStage (A B : FVec Ideal S64x256 .f32) (t u : Fin 64) (j : Fin 256) :
    shapeCast S4096x256 (truncf .bf16 (tanh (addf
        (broadcastTo S64x64x256 (shapeCast S64x1x256 A shapeCasts_S64x256_S64x1x256) broadcasts_S64x1x256_S64x64x256)
        (broadcastTo S64x64x256 (shapeCast S1x64x256 B shapeCasts_S64x256_S1x64x256) broadcasts_S1x64x256_S64x64x256)))
        bitsLt_bf16_f32) shapeCasts_S64x64x256_S4096x256 (ix2 (pairRow t u) j)
      = Ideal.tanh (A (ix2 t j) + B (ix2 u j)) := by
  refine (shapeCast_apply _ shapeCasts_S64x64x256_S4096x256 (ix2 (pairRow t u) j) (ix3 t u j) (by
    rw [Shape.rowMajor_val_three, Shape.rowMajor_val_two]
    show (t.val * 64 + u.val) * 256 + j.val = (t.val * 64 + u.val) * 256 + j.val
    rfl)).trans ?_
  show Ideal.tanh (broadcastTo S64x64x256 (shapeCast S64x1x256 A shapeCasts_S64x256_S64x1x256) broadcasts_S64x1x256_S64x64x256 (ix3 t u j)
      + broadcastTo S64x64x256 (shapeCast S1x64x256 B shapeCasts_S64x256_S1x64x256) broadcasts_S1x64x256_S64x64x256 (ix3 t u j)) = _
  rw [Cert.LibOuterLayout.broadcastTo_a1b_acb_apply, Cert.LibOuterLayout.shapeCast_ab_a1b_apply,
    Cert.LibOuterLayout.broadcastTo_1cb_acb_apply, shapeCast_ab_1ab_apply]

/-- The product's rows laid back out as pairs under a leading unit axis: entry (0, t, u, v) is row 64·t + u at v. -/
theorem pairsStage (M : FVec Ideal S4096x500 .f32) (u0 : Fin 1) (t u : Fin 64) (v : Fin 500) :
    shapeCast S1x64x64x500 (shapeCast S64x64x500 M shapeCasts_S4096x500_S64x64x500) shapeCasts_S64x64x500_S1x64x64x500 (ix4 u0 t u v)
      = M (ix2 (pairRow t u) v) := by
  rw [shapeCast_abc_1abc_apply]
  exact shapeCast_apply M shapeCasts_S4096x500_S64x64x500 (ix3 t u v) (ix2 (pairRow t u) v) (by
    rw [Shape.rowMajor_val_three, Shape.rowMajor_val_two]
    show (t.val * 64 + u.val) * 500 + v.val = (t.val * 64 + u.val) * 500 + v.val
    rfl)

/-! ## The stored block at an index -/

/-- The body's stored value at (0, t, u, v), from its five loaded blocks. -/
theorem pay_apply (x0 : Vec Ideal S1x64x128 .f32) (x1 : Vec Ideal S1x64x256 .f32) (x2 : Vec Ideal S128x256 .f32)
    (x3 : Vec Ideal S256x256 .f32) (x4 : Vec Ideal S256x500 .bf16) (u0 : Fin 1) (t u : Fin 64) (v : Fin 500) :
    k0_pay1 (F := Ideal) x0 x1 x2 x3 x4 (ix4 u0 t u v)
      = ∑ j : Fin 256, Ideal.tanh ((∑ e : Fin 128, x0 (ix3 (0 : Fin 1) t e) * x2 (ix2 e j))
          + (∑ p : Fin 256, x1 (ix3 (0 : Fin 1) u p) * x3 (ix2 p j))) * x4 (ix2 j v) := by
  unfold k0_pay1
  refine (pairsStage _ u0 t u v).trans ?_
  refine (logitStage _ x4 (pairRow t u) v).trans ?_
  refine Finset.sum_congr rfl fun j _ => ?_
  refine congrArg (fun a : EReal => a * x4 (ix2 j v)) ?_
  refine (hiddenStage _ _ t u j).trans ?_
  exact congrArg Ideal.tanh (congrArg₂ (fun a b : EReal => a + b) (encStage x0 x2 t j) (predStage x1 x3 u j))

/-! ## The stored block is a block of the logits array

If the five loaded blocks are what the grid point at batch entry b and frame block tb stages — frames 64·tb … 64·tb + 63
of batch entry b, all of its predictor steps, and the three weight arrays as the region finds them — then the stored entry
at (0, t, u, v) is the logit at (b, 64·tb + t, u, v). -/

/-- Frame 64·tb + t: frame t of the tb-th block of 64 frames. -/
abbrev frameOf (tb : Fin 4) (t : Fin 64) : Fin 256 := ⟨tb.val * 64 + t.val, by have := tb.isLt; have := t.isLt; omega⟩

theorem pay_logits (x0 : Vec Ideal S1x64x128 .f32) (x1 : Vec Ideal S1x64x256 .f32) (x2 : Vec Ideal S128x256 .f32)
    (x3 : Vec Ideal S256x256 .f32) (x4 : Vec Ideal S256x500 .bf16)
    (ft : (⟨3, ![8, 256, 128]⟩ : Shape).Idx → EReal) (gu : (⟨3, ![8, 64, 256]⟩ : Shape).Idx → EReal)
    (w1 : (⟨2, ![256, 384]⟩ : Shape).Idx → EReal) (w2 : (⟨2, ![500, 256]⟩ : Shape).Idx → EReal)
    (b : Fin 8) (tb : Fin 4)
    (h0 : ∀ (t : Fin 64) (e : Fin 128), x0 (ix3 (0 : Fin 1) t e) = ft (ix3 b (frameOf tb t) e))
    (h1 : ∀ (u : Fin 64) (p : Fin 256), x1 (ix3 (0 : Fin 1) u p) = gu (ix3 b u p))
    (h2 : ∀ (e : Fin 128) (j : Fin 256), x2 (ix2 e j) = w1 (ix2 j (encCol e)))
    (h3 : ∀ (p : Fin 256) (j : Fin 256), x3 (ix2 p j) = w1 (ix2 j (predCol p)))
    (h4 : ∀ (j : Fin 256) (v : Fin 500), x4 (ix2 j v) = w2 (ix2 v j))
    (y : S1x64x64x500.Idx) (i : S8x256x64x500.Idx)
    (hi0 : (i 0).val = b.val) (hi1 : (i 1).val = tb.val * 64 + (y 1).val)
    (hi2 : (i 2).val = (y 2).val) (hi3 : (i 3).val = (y 3).val) :
    k0_pay1 (F := Ideal) x0 x1 x2 x3 x4 y = logits ft gu w1 w2 i := by
  obtain ⟨u0, t, u, v, rfl⟩ : ∃ (u0 : Fin 1) (t u : Fin 64) (v : Fin 500), y = ix4 u0 t u v :=
    ⟨y 0, y 1, y 2, y 3, eq_ix4 y⟩
  obtain rfl : i = ix4 b (frameOf tb t) u v := funext fun a => Fin.ext (by
    match a with
    | ⟨0, _⟩ => exact hi0
    | ⟨1, _⟩ => exact hi1
    | ⟨2, _⟩ => exact hi2
    | ⟨3, _⟩ => exact hi3)
  rw [pay_apply, logits_ix4]
  unfold logitAt Cert.Joint.hidden encProj predProj
  simp only [h0, h1, h2, h3, h4]

end Cert.BodyJoint

end
-- ==== Proof.HostWeights.lean ====
/-
  The three weight arrays the region finds, in terms of the arguments.

  Before the region the first layer's weights w1 (joint feature × 384 input features) are cut into their 128 encoder
  columns and their 256 predictor columns and each piece is transposed; the second layer's weights w2 (vocabulary × joint
  feature) are transposed and narrowed, which changes no value on the extended reals.  So the region finds

      encoder weights   (e, j) = w1 (j, e)
      predictor weights (p, j) = w1 (j, 128 + p)
      output weights    (j, v) = w2 (v, j).
-/
import proofs.«141013_j65859028517441_2_alg».proof.Proof.Gen.KernelIdeal.Frame
import proofs.«141013_j65859028517441_2_alg».proof.Proof.Joint
import Idealize.ShloMosaic.Lib.ValueLayout
import Idealize.ShloMosaic.Lib.StableHlo.Run

noncomputable section

namespace Cert.HostWeights

open Cert.KernelIdeal Cert.KernelIdeal.Gen Idealize.ShloMosaic Idealize.ShloMosaic.TcCoe Idealize.SL.Sem
open Idealize.ShloMosaic.StableHlo Idealize.ShloMosaic.ValueIdx Cert.Joint

variable (m : (ℓ : Loc nD τ sig) → Buf (Elt Ideal) ℓ)

/-- The encoder weights at (e, j) are w1 at (j, e). -/
theorem encWeights (c : Dev nD) (e : Fin 128) (j : Fin 256) :
    (V m c main_v1 : S128x256.Idx → EReal) (ix2 e j)
      = (m ((c : Thread nD τ).loc main_arg2) : S256x384.Idx → EReal) (ix2 j (encCol e)) := by
  have h : (V m c main_v1 : S128x256.Idx → EReal)
      = transpose S128x256 [1, 0] (extractStridedSlice S256x128 ![0, 0]
          (m ((c : Thread nD τ).loc main_arg2) : S256x384.Idx → EReal) slices_S256x384_S256x128_0_0)
          transposes_S256x128_S128x256_1_0 := by
    dsimp only [Gen.V, Gen.hostOps0]; after_results
  rw [h, transpose_ix2_apply]
  exact slice2_axis1_apply 0 _ slices_S256x384_S256x128_0_0 j e (encCol e) (by show e.val = 0 + e.val; omega)

/-- The predictor weights at (p, j) are w1 at (j, 128 + p). -/
theorem predWeights (c : Dev nD) (p : Fin 256) (j : Fin 256) :
    (V m c main_v3 : S256x256.Idx → EReal) (ix2 p j)
      = (m ((c : Thread nD τ).loc main_arg2) : S256x384.Idx → EReal) (ix2 j (predCol p)) := by
  have h : (V m c main_v3 : S256x256.Idx → EReal)
      = transpose S256x256 [1, 0] (extractStridedSlice S256x256 ![0, 128]
          (m ((c : Thread nD τ).loc main_arg2) : S256x384.Idx → EReal) slices_S256x384_S256x256_0_128)
          transposes_S256x256_S256x256_1_0 := by
    dsimp only [Gen.V, Gen.hostOps0]; after_results
  rw [h, transpose_ix2_apply]
  exact slice2_axis1_apply 128 _ slices_S256x384_S256x256_0_128 j p (predCol p) rfl

/-- The output weights at (j, v) are w2 at (v, j). -/
theorem outWeights (c : Dev nD) (j : Fin 256) (v : Fin 500) :
    (V m c main_v5 : S256x500.Idx → EReal) (ix2 j v)
      = (m ((c : Thread nD τ).loc main_arg3) : S500x256.Idx → EReal) (ix2 v j) := by
  have h : (V m c main_v5 : S256x500.Idx → EReal)
      = truncf (F := Ideal) .bf16 (transpose S256x500 [1, 0]
          (m ((c : Thread nD τ).loc main_arg3) : S500x256.Idx → EReal) transposes_S500x256_S256x500_1_0) bitsLt_bf16_f32 := by
    dsimp only [Gen.V, Gen.hostOps0]; after_results
  rw [h]
  show transpose S256x500 [1, 0] (m ((c : Thread nD τ).loc main_arg3) : S500x256.Idx → EReal) transposes_S500x256_S256x500_1_0 (ix2 j v) = _
  rw [transpose_ix2_apply]

end Cert.HostWeights

end
-- ==== Proof.JointBlocks.lean ====
/-
  From blocks to the array.

  The grid has 8 × 4 points: point (b, tb) stages frames 64·tb … 64·tb + 63 of batch entry b, all 64 predictor steps of
  batch entry b and the three whole weight arrays, and writes back the block of the result at batch entry b and those
  frames — all steps, all vocabulary entries.  Each point writes that block of the logits array of the arguments
  (the stored entry at (0, t, u, v) is the logit at (b, 64·tb + t, u, v)), and the 32 blocks cover the result: index
  (b, T, u, v) lies in the block of point (b, T / 64).  So the result array ends holding the logits array.
-/
import proofs.«141013_j65859028517441_2_alg».proof.Proof.Gen.KernelIdeal.Value
import proofs.«141013_j65859028517441_2_alg».proof.Proof.BodyJoint
import proofs.«141013_j65859028517441_2_alg».proof.Proof.HostWeights
import Idealize.ShloMosaic.Lib.Pipeline.Value

set_option maxRecDepth 16384

noncomputable section

namespace Cert.JointBlocks

open Cert.KernelIdeal Cert.KernelIdeal.Gen Idealize.ShloMosaic Idealize.ShloMosaic.TcCoe Idealize.SL.Sem
open Idealize.ShloMosaic.ValueIdx Cert.Joint Cert.BodyJoint
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The logits array of the four arguments as launched on core c. -/
abbrev result (c : Dev nD) : S8x256x64x500.Idx → EReal :=
  logits (m ((c : Thread nD τ).loc main_arg0)) (m ((c : Thread nD τ).loc main_arg1))
    (m ((c : Thread nD τ).loc main_arg2)) (m ((c : Thread nD τ).loc main_arg3))

/-! ## The index maps, decided over the 32 grid points -/

/-- The frames' block follows the result's block on the batch and frame-block axes; the steps' block follows it on the
    batch axis only; the weight arrays are staged whole; the result's block index is (b, tb, 0, 0) with b < 8, tb < 4. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) < 8 ∧ win0_5.index t (1 : Fin 4) < 4
    ∧ win0_5.index t (2 : Fin 4) = 0 ∧ win0_5.index t (3 : Fin 4) = 0 :=
  (by decide +kernel : ∀ t : Fin grid0.N, _)

/-- Every (batch entry, frame block) is some point's. -/
theorem idx_onto : ∀ (q0 : Fin 8) (q1 : Fin 4), ∃ t : Fin cfg0.N, win0_5.index t = ![q0.val, q1.val, 0, 0] :=
  (by decide +kernel : ∀ (q0 : Fin 8) (q1 : Fin 4), ∃ t : Fin grid0.N, win0_5.index t = ![q0.val, q1.val, 0, 0])

/-! ## The staged blocks, read at an index -/

/-- The frames' block at point t reads the frames argument at block index × block size + the index inside the block. -/
theorem ftBlock (c : Dev nD) (t : Fin cfg0.N) (x : S1x64x128.Idx) (k : S8x256x128.Idx)
    (hk0 : (k 0).val = win0_0.index t (0 : Fin 3) * 1 + (x 0).val)
    (hk1 : (k 1).val = win0_0.index t (1 : Fin 3) * 64 + (x 1).val)
    (hk2 : (k 2).val = win0_0.index t (2 : Fin 3) * 128 + (x 2).val) :
    (iblk m c 0 t : Vec Ideal S1x64x128 .f32) x = (m ((c : Thread nD τ).loc main_arg0) : S8x256x128.Idx → EReal) k := by
  unfold iblk
  rw [View.read_apply]
  show V m c main_arg0 _ = _
  rw [V_main_arg0]
  congr 1
  funext a; apply Fin.ext
  match a with
  | ⟨0, _⟩ => show win0_0.index t (0 : Fin 3) * 1 + 1 * (x 0).val = (k 0).val; omega
  | ⟨1, _⟩ => show win0_0.index t (1 : Fin 3) * 64 + 1 * (x 1).val = (k 1).val; omega
  | ⟨2, _⟩ => show win0_0.index t (2 : Fin 3) * 128 + 1 * (x 2).val = (k 2).val; omega

/-- The steps' block at point t, likewise. -/
theorem guBlock (c : Dev nD) (t : Fin cfg0.N) (x : S1x64x256.Idx) (k : S8x64x256.Idx)
    (hk0 : (k 0).val = win0_1.index t (0 : Fin 3) * 1 + (x 0).val)
    (hk1 : (k 1).val = win0_1.index t (1 : Fin 3) * 64 + (x 1).val)
    (hk2 : (k 2).val = win0_1.index t (2 : Fin 3) * 256 + (x 2).val) :
    (iblk m c 1 t : Vec Ideal S1x64x256 .f32) x = (m ((c : Thread nD τ).loc main_arg1) : S8x64x256.Idx → EReal) k := by
  unfold iblk
  rw [View.read_apply]
  show V m c main_arg1 _ = _
  rw [V_main_arg1]
  congr 1
  funext a; apply Fin.ext
  match a with
  | ⟨0, _⟩ => show win0_1.index t (0 : Fin 3) * 1 + 1 * (x 0).val = (k 0).val; omega
  | ⟨1, _⟩ => show win0_1.index t (1 : Fin 3) * 64 + 1 * (x 1).val = (k 1).val; omega
  | ⟨2, _⟩ => show win0_1.index t (2 : Fin 3) * 256 + 1 * (x 2).val = (k 2).val; omega

/-- The encoder weights' block, staged whole, at (e, j) is w1 at (j, e). -/
theorem encBlock (c : Dev nD) (t : Fin cfg0.N) (f0 : win0_2.index t (0 : Fin 2) = 0) (f1 : win0_2.index t (1 : Fin 2) = 0)
    (e : Fin 128) (j : Fin 256) :
    (iblk m c 2 t : Vec Ideal S128x256 .f32) (ix2 e j)
      = (m ((c : Thread nD τ).loc main_arg2) : S256x384.Idx → EReal) (ix2 j (encCol e)) := by
  unfold iblk
  rw [View.read_apply]
  show (V m c main_v1 : S128x256.Idx → EReal) _ = _
  refine Eq.trans (congrArg (V m c main_v1 : S128x256.Idx → EReal) ?_) (Cert.HostWeights.encWeights m c e j)
  funext a; apply Fin.ext
  match a with
  | ⟨0, _⟩ => show win0_2.index t (0 : Fin 2) * 128 + 1 * e.val = e.val; rw [f0]; omega
  | ⟨1, _⟩ => show win0_2.index t (1 : Fin 2) * 256 + 1 * j.val = j.val; rw [f1]; omega

/-- The predictor weights' block, staged whole, at (p, j) is w1 at (j, 128 + p). -/
theorem predBlock (c : Dev nD) (t : Fin cfg0.N) (f0 : win0_3.index t (0 : Fin 2) = 0) (f1 : win0_3.index t (1 : Fin 2) = 0)
    (p : Fin 256) (j : Fin 256) :
    (iblk m c 3 t : Vec Ideal S256x256 .f32) (ix2 p j)
      = (m ((c : Thread nD τ).loc main_arg2) : S256x384.Idx → EReal) (ix2 j (predCol p)) := by
  unfold iblk
  rw [View.read_apply]
  show (V m c main_v3 : S256x256.Idx → EReal) _ = _
  refine Eq.trans (congrArg (V m c main_v3 : S256x256.Idx → EReal) ?_) (Cert.HostWeights.predWeights m c p j)
  funext a; apply Fin.ext
  match a with
  | ⟨0, _⟩ => show win0_3.index t (0 : Fin 2) * 256 + 1 * p.val = p.val; rw [f0]; omega
  | ⟨1, _⟩ => show win0_3.index t (1 : Fin 2) * 256 + 1 * j.val = j.val; rw [f1]; omega

/-- The output weights' block, staged whole, at (j, v) is w2 at (v, j). -/
theorem outBlock (c : Dev nD) (t : Fin cfg0.N) (f0 : win0_4.index t (0 : Fin 2) = 0) (f1 : win0_4.index t (1 : Fin 2) = 0)
    (j : Fin 256) (v : Fin 500) :
    (iblk m c 4 t : Vec Ideal S256x500 .bf16) (ix2 j v)
      = (m ((c : Thread nD τ).loc main_arg3) : S500x256.Idx → EReal) (ix2 v j) := by
  unfold iblk
  rw [View.read_apply]
  show (V m c main_v5 : S256x500.Idx → EReal) _ = _
  refine Eq.trans (congrArg (V m c main_v5 : S256x500.Idx → EReal) ?_) (Cert.HostWeights.outWeights m c j v)
  funext a; apply Fin.ext
  match a with
  | ⟨0, _⟩ => show win0_4.index t (0 : Fin 2) * 256 + 1 * j.val = j.val; rw [f0]; omega
  | ⟨1, _⟩ => show win0_4.index t (1 : Fin 2) * 500 + 1 * v.val = v.val; rw [f1]; omega

/-! ## What a point writes back, the cover, and the array after the run -/

/-- Point t writes back its block of the logits array. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero4]
  simp only [View.ld_unit_zero (S := S1x64x128) zero3, View.ld_unit_zero (S := S1x64x256) zero3,
    View.ld_unit_zero (S := S128x256) zero2, View.ld_unit_zero (S := S256x256) zero2,
    View.ld_unit_zero (S := S256x500) zero2]
  obtain ⟨f00, f01, f02, f10, f11, f12, f20, f21, f30, f31, f40, f41, g0, g1, g2, g3⟩ := idx_facts t
  funext y
  show k0_pay1 (F := Ideal) (iblk m c 0 t) (iblk m c 1 t) (iblk m c 2 t) (iblk m c 3 t) (iblk m c 4 t) y
    = result m c (((cfg0.win 5).blk t).view.emb y)
  exact pay_logits (iblk m c 0 t) (iblk m c 1 t) (iblk m c 2 t) (iblk m c 3 t) (iblk m c 4 t)
    (m ((c : Thread nD τ).loc main_arg0)) (m ((c : Thread nD τ).loc main_arg1))
    (m ((c : Thread nD τ).loc main_arg2)) (m ((c : Thread nD τ).loc main_arg3))
    ⟨win0_5.index t (0 : Fin 4), g0⟩ ⟨win0_5.index t (1 : Fin 4), g1⟩
    (fun t' e => ftBlock m c t (ix3 (0 : Fin 1) t' e)
      (ix3 ⟨win0_5.index t (0 : Fin 4), g0⟩ (frameOf ⟨win0_5.index t (1 : Fin 4), g1⟩ t') e)
      (by show win0_5.index t (0 : Fin 4) = win0_0.index t (0 : Fin 3) * 1 + 0; rw [f00]; omega)
      (by show win0_5.index t (1 : Fin 4) * 64 + t'.val = win0_0.index t (1 : Fin 3) * 64 + t'.val; rw [f01])
      (by show e.val = win0_0.index t (2 : Fin 3) * 128 + e.val; rw [f02]; omega))
    (fun u p => guBlock m c t (ix3 (0 : Fin 1) u p) (ix3 ⟨win0_5.index t (0 : Fin 4), g0⟩ u p)
      (by show win0_5.index t (0 : Fin 4) = win0_1.index t (0 : Fin 3) * 1 + 0; rw [f10]; omega)
      (by show u.val = win0_1.index t (1 : Fin 3) * 64 + u.val; rw [f11]; omega)
      (by show p.val = win0_1.index t (2 : Fin 3) * 256 + p.val; rw [f12]; omega))
    (fun e j => encBlock m c t f20 f21 e j)
    (fun p j => predBlock m c t f30 f31 p j)
    (fun j v => outBlock m c t f40 f41 j v)
    y (((cfg0.win 5).blk t).view.emb y)
    (by show win0_5.index t (0 : Fin 4) * 1 + 1 * (y 0).val = win0_5.index t (0 : Fin 4)
        have h : (y 0).val < 1 := (y 0).isLt
        omega)
    (by show win0_5.index t (1 : Fin 4) * 64 + 1 * (y 1).val = win0_5.index t (1 : Fin 4) * 64 + (y 1).val; omega)
    (by show win0_5.index t (2 : Fin 4) * 64 + 1 * (y 2).val = (y 2).val; rw [g2]; omega)
    (by show win0_5.index t (3 : Fin 4) * 500 + 1 * (y 3).val = (y 3).val; rw [g3]; omega)

/-- An index of the result is in point t's block iff each coordinate is in the block's range on its axis. -/
theorem mem_blk (t : Fin cfg0.N) (i : S8x256x64x500.Idx) :
    i ∈ ((cfg0.win 5).blk t).view.set ↔ ∀ a : Fin 4, win0_5.index t a * S1x64x64x500.size a ≤ (i a).val
      ∧ (i a).val < win0_5.index t a * S1x64x64x500.size a + S1x64x64x500.size a := by
  show i ∈ ((View.whole main_v6).slice (win0_5.rect t)).set ↔ _
  rw [View.set_slice_whole, Rect.mem_set_unit]
  exact Iff.rfl

/-- Every index of the result lies in some point's block: (b, T, u, v) in the block of the point (b, T / 64). -/
theorem cover (i : S8x256x64x500.Idx) :
    ∃ t : Fin cfg0.N, (cfg0.win 5).flush t = true ∧ i ∈ ((cfg0.win 5).blk t).view.set := by
  have hi0 : (i 0).val < 8 := (i 0).isLt
  have hi1 : (i 1).val < 256 := (i 1).isLt
  have hi2 : (i 2).val < 64 := (i 2).isLt
  have hi3 : (i 3).val < 500 := (i 3).isLt
  obtain ⟨t, ht⟩ := idx_onto ⟨(i 0).val, hi0⟩ ⟨(i 1).val / 64, by omega⟩
  have q0 : win0_5.index t (0 : Fin 4) = (i 0).val := congrFun ht 0
  have q1 : win0_5.index t (1 : Fin 4) = (i 1).val / 64 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 64 ≤ (i 1).val ∧ (i 1).val < win0_5.index t (1 : Fin 4) * 64 + 64; omega
  | ⟨2, _⟩ => show win0_5.index t (2 : Fin 4) * 64 ≤ (i 2).val ∧ (i 2).val < win0_5.index t (2 : Fin 4) * 64 + 64; omega
  | ⟨3, _⟩ => show win0_5.index t (3 : Fin 4) * 500 ≤ (i 3).val ∧ (i 3).val < win0_5.index t (3 : Fin 4) * 500 + 500; omega

/-- The result array after the run is the logits array. -/
theorem final (c : Dev nD) : (dats m 0 c).arrAt 5 cfg0.N = result m c :=
  (dats m 0 c).arrAt_eq_of_cover 5 (result m c) (fun t _ => flushed_eq m c t) cover

/-- The kernel's run: every weakly fair execution ends with the result array at the logits array of the arguments and
    the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.JointBlocks

end
-- ==== Proof.RefJoint.lean ====
/-
  The reference computes the joint network's logits.

  Read one operation at a time, its result at (b, t, u, v) is the sum over the joint feature j of the hidden
  activation at (b, t, u, j) — tanh of the encoder projection of frame (b, t) plus the predictor projection of step
  (b, u), each a dot product of the frame or step with a column slice of weight row j — times w2 (v, j).  The two
  broadcasts of each projection only repeat it along the axis it does not depend on.
-/
import proofs.«141013_j65859028517441_2_alg».proof.Proof.Gen.ReferenceIdeal.Read
import proofs.«141013_j65859028517441_2_alg».proof.Proof.Joint

noncomputable section

namespace Cert.RefJoint

open Cert.ReferenceIdeal Cert.ReferenceIdeal.Read Idealize.ShloMosaic Idealize.ShloMosaic.ValueIdx Cert.Joint
open scoped BigOperators

/-- The reference's activation before the second layer, at (b, t, u, j), is the hidden activation. -/
theorem hidden_eq (x0 : (⟨S8x256x128, .f32⟩ : BufTy).Contents (Elt Ideal)) (x1 : (⟨S8x64x256, .f32⟩ : BufTy).Contents (Elt Ideal))
    (x2 : (⟨S256x384, .f32⟩ : BufTy).Contents (Elt Ideal)) (b : Fin 8) (t : Fin 256) (u : Fin 64) (j : Fin 256) :
    val_main_v9 (F := Ideal) x0 x1 x2 (ix4 b t u j) = hidden x0 x1 x2 b t u j := by
  rw [val_main_v9_apply, val_main_v8_apply, val_main_v6_apply, val_main_v4_apply, val_main_v2_apply,
    val_main_v7_apply, val_main_v5_apply, val_main_v3_apply]
  simp only [val_main_v0_apply, val_main_v1_apply]
  have e1 : ∀ k : Fin 128, lidx_main_v2 (idx_main_v4 (idx_main_v6 (ix4 b t u j))) k = ix3 b t k := fun k =>
    funext fun a => Fin.ext (by match a with | ⟨0, _⟩ => rfl | ⟨1, _⟩ => rfl | ⟨2, _⟩ => rfl)
  have e2 : ∀ k : Fin 128, idx_main_v0 (ridx_main_v2 (idx_main_v4 (idx_main_v6 (ix4 b t u j))) k) = ix2 j (encCol k) := fun k =>
    funext fun a => Fin.ext (by match a with | ⟨0, _⟩ => rfl | ⟨1, _⟩ => rfl)
  have e3 : ∀ k : Fin 256, lidx_main_v3 (idx_main_v5 (idx_main_v7 (ix4 b t u j))) k = ix3 b u k := fun k =>
    funext fun a => Fin.ext (by match a with | ⟨0, _⟩ => rfl | ⟨1, _⟩ => rfl | ⟨2, _⟩ => rfl)
  have e4 : ∀ k : Fin 256, idx_main_v1 (ridx_main_v3 (idx_main_v5 (idx_main_v7 (ix4 b t u j))) k) = ix2 j (predCol k) := fun k =>
    funext fun a => Fin.ext (by match a with | ⟨0, _⟩ => rfl | ⟨1, _⟩ => rfl)
  simp only [e1, e2, e3, e4]
  rfl

/-- The reference's result array is the logits array of its four arguments. -/
theorem result_eq (x0 : (⟨S8x256x128, .f32⟩ : BufTy).Contents (Elt Ideal)) (x1 : (⟨S8x64x256, .f32⟩ : BufTy).Contents (Elt Ideal))
    (x2 : (⟨S256x384, .f32⟩ : BufTy).Contents (Elt Ideal)) (x3 : (⟨S500x256, .f32⟩ : BufTy).Contents (Elt Ideal)) :
    val_main_v10 (F := Ideal) x0 x1 x2 x3 = logits x0 x1 x2 x3 := by
  funext i
  obtain ⟨b, t, u, v, rfl⟩ : ∃ (b : Fin 8) (t : Fin 256) (u : Fin 64) (v : Fin 500), i = ix4 b t u v :=
    ⟨i 0, i 1, i 2, i 3, eq_ix4 i⟩
  rw [val_main_v10_apply, logits_ix4]
  unfold logitAt
  refine Finset.sum_congr rfl fun j _ => ?_
  have el : lidx_main_v10 (ix4 b t u v) j = ix4 b t u j :=
    funext fun a => Fin.ext (by match a with | ⟨0, _⟩ => rfl | ⟨1, _⟩ => rfl | ⟨2, _⟩ => rfl | ⟨3, _⟩ => rfl)
  have er : ridx_main_v10 (ix4 b t u v) j = ix2 v j :=
    funext fun a => Fin.ext (by match a with | ⟨0, _⟩ => rfl | ⟨1, _⟩ => rfl)
  rw [el, er, hidden_eq]

end Cert.RefJoint

end
-- ==== Proof.lean ====
/-
  The joint network of a transducer: a kernel on an 8 × 4 grid against its plain reference, equal on the extended reals.

  Both programs compute, for a batch entry b, an encoder frame t, a predictor step u and a vocabulary entry v,

      logits (b, t, u, v) = Σ_j tanh( Σ_e ft (b, t, e) · w1 (j, e)  +  Σ_p gu (b, u, p) · w1 (j, 128 + p) ) · w2 (v, j).

  The reference does it with three whole-array contractions and two broadcasts.  The kernel first cuts w1 into its
  encoder and predictor columns and transposes the pieces and w2; each grid point then takes 64 frames and the 64 steps
  of one batch entry, forms the two small products, adds every frame's row to every step's row, applies tanh, and
  multiplies the 4096 pair rows by the transposed w2.  A contraction is the same finite sum of products on both sides
  (same factors, same order of the two factors in each product), tanh is one function, and the narrowing of the
  activations and of w2 changes no value on the extended reals; only commutativity and associativity of the finite sums
  are used, so the precondition is not needed for the values.

  The pieces: the function itself (Proof/Joint), the reference read one operation at a time (Proof/RefJoint), one grid
  point's stored block read at an index (Proof/BodyJoint, over Proof/LibDot and Proof/LibOuterLayout), the weight arrays
  the region finds (Proof/HostWeights), and the 32 blocks covering the result (Proof/JointBlocks).  The three programs'
  termination and unchanged arguments come from the generated frame and run modules; the idealization rewrote nothing.
-/
import proofs.«141013_j65859028517441_2_alg».proof.Defs
import proofs.«141013_j65859028517441_2_alg».proof.Proof.Gen.Kernel
import proofs.«141013_j65859028517441_2_alg».proof.Proof.Gen.Kernel.Skeleton
import proofs.«141013_j65859028517441_2_alg».proof.Proof.Gen.Kernel.Launch
import proofs.«141013_j65859028517441_2_alg».proof.Proof.Gen.Kernel.Points
import proofs.«141013_j65859028517441_2_alg».proof.Proof.Gen.Kernel.Frame
import proofs.«141013_j65859028517441_2_alg».proof.Proof.Gen.KernelIdeal
import proofs.«141013_j65859028517441_2_alg».proof.Proof.Gen.KernelIdeal.Skeleton
import proofs.«141013_j65859028517441_2_alg».proof.Proof.Gen.KernelIdeal.Launch
import proofs.«141013_j65859028517441_2_alg».proof.Proof.Gen.KernelIdeal.Points
import proofs.«141013_j65859028517441_2_alg».proof.Proof.Gen.KernelIdeal.Frame
import proofs.«141013_j65859028517441_2_alg».proof.Proof.Gen.ReferenceIdeal
import proofs.«141013_j65859028517441_2_alg».proof.Proof.Gen.Pre_finite_inputs
import proofs.«141013_j65859028517441_2_alg».proof.Proof.Gen.KernelIdeal.Value
import proofs.«141013_j65859028517441_2_alg».proof.Proof.Gen.ReferenceIdeal.Run
import proofs.«141013_j65859028517441_2_alg».proof.Proof.Gen.ReferenceIdeal.Read
import proofs.«141013_j65859028517441_2_alg».proof.Proof.JointBlocks
import proofs.«141013_j65859028517441_2_alg».proof.Proof.RefJoint
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, the kernel's result array ends at the logits array of its arguments
    (the 32 blocks) and the reference's at the logits array of its own (its operations read one at a time): one array. -/
theorem algebraic : Cert.algebraic_KernelIdeal_ReferenceIdeal := by
  intro m ρ m' ρ' _ hagree
  refine ⟨fun c => Cert.JointBlocks.result m c, Cert.JointBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefJoint.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
